-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 60
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S100000x1, .f32⟩
  | .hbm, ⟨41, _⟩ => ⟨S100000x1, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x1, .f32⟩
  | .hbm, ⟨58, _⟩ => ⟨S1x64, .f32⟩
  | .hbm, ⟨59, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x1, .f32⟩
  | .local _ .vmem, ⟨13, _⟩ => ⟨S5000x1, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S100000x128, .f32⟩
  | .hbm, ⟨28, _⟩ => ⟨S100000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .i1⟩
  | .hbm, ⟨51, _⟩ => ⟨S_, .f32⟩
  | .hbm, ⟨52, _⟩ => ⟨S100000x64, .f32⟩
  | .hbm, ⟨53, _⟩ => ⟨S100000x64, .i1⟩
  | .hbm, ⟨54, _⟩ => ⟨S_, .f32⟩
  | .hbm, ⟨55, _⟩ => ⟨S_, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x64, .f32⟩
  | .hbm, ⟨94, _⟩ => ⟨S_, .f32⟩
  | .hbm, ⟨95, _⟩ => ⟨S100000x64, .f32⟩
  | .hbm, ⟨96, _⟩ => ⟨S1600000x1, .i32⟩
  | .hbm, ⟨97, _⟩ => ⟨S100000x64, .f32⟩
  | .hbm, ⟨98, _⟩ => ⟨S100000x1, .f32⟩
  | .hbm, ⟨99, _⟩ => ⟨S100000x64, .f32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_cst_1 : Ref sig .tc := ⟨.hbm, 54, rfl⟩
abbrev main_call0_call0_v0 : Ref sig .tc := ⟨.hbm, 55, rfl⟩
abbrev main_call0_call0_v1 : Ref sig .tc := ⟨.hbm, 56, rfl⟩
abbrev main_call0_v4 : Ref sig .tc := ⟨.hbm, 57, rfl⟩
abbrev main_call0_v5 : Ref sig .tc := ⟨.hbm, 58, rfl⟩
abbrev main_call0_cst_2 : Ref sig .tc := ⟨.hbm, 59, rfl⟩
abbrev main_call0_v6 : Ref sig .tc := ⟨.hbm, 60, rfl⟩
abbrev main_call0_v7 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_8 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_10 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_11 : Ref sig .tc := ⟨.hbm, 85, rfl⟩
abbrev main_v51 : Ref sig .tc := ⟨.hbm, 86, rfl⟩
abbrev main_v52 : Ref sig .tc := ⟨.hbm, 87, rfl⟩
abbrev main_c_12 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_13 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KerRun.lean ====
/-
  The idealized kernel program's run with its result kept.

  @main is three TensorCore regions among stretches of host operations. Running the segments in order, every
  unscoped buffer ends at the last boundary's contents: the launch contents folded through the host stretches, with each
  region's arrays at what its blocks' write-backs leave. The frame keeps only the argument arrays of that final state;
  here the result buffer is kept too, at the same boundary's contents.
-/
import proofs.«162123_j40845138985205_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the argument arrays end as launched. -/
theorem run_result : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.KerRun

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibDenseProduct.lean ====
/-
  The dense product as one function of its two matrices, and the two spellings of it the programs use.

  For an m×k matrix A and a k×n matrix B, mm A B has at row a and column b the entry ∑ c, A(a, c) · B(c, b), over the
  extended reals. The host's plain dot_general of A and B is this array, and so is the kernel's matrix unit applied
  to A and B with the zero accumulator; the number format of either operand plays no part at the ideal values. A block of
  rows of mm A B is mm of the same rows of A with B: row a of the product reads row a of A only.
-/
import proofs.«162123_j40845138985205_1_alg».proof.Proof.LibMatmulPlain

noncomputable section

namespace Cert.LibDenseProduct

open Idealize.ShloMosaic Idealize.ShloMosaic.ValueIdx

variable {m k n : Nat} {φ₁ φ₂ : FTy}

/-- The product of an m×k and a k×n matrix, entry by entry. -/
def mm (A : FVec Ideal ⟨2, ![m, k]⟩ φ₁) (B : FVec Ideal ⟨2, ![k, n]⟩ φ₂) : FVec Ideal ⟨2, ![m, n]⟩ .f32 :=
  fun i => ∑ c : Fin k, A (ix2 (i 0) c) * B (ix2 c (i 1))

theorem mm_apply (A : FVec Ideal ⟨2, ![m, k]⟩ φ₁) (B : FVec Ideal ⟨2, ![k, n]⟩ φ₂) (a : Fin m) (b : Fin n) :
    mm A B (ix2 a b) = ∑ c : Fin k, A (ix2 a c) * B (ix2 c b) := rfl

/-- The host's plain product is `mm`. -/
theorem dotGeneral_plain_eq (prec : Option ContractPrecision) (A : FVec Ideal ⟨2, ![m, k]⟩ φ₁) (B : FVec Ideal ⟨2, ![k, n]⟩ φ₂) :
    Host.dotGeneral (DotDims.plain m k n) prec A B = mm A B := by
  funext i
  rw [eq_ix2 i]
  exact StackMember.dotGeneral_plain_apply prec A B _ _

/-- The matrix unit's plain product into the zero accumulator is `mm`. -/
theorem matmul_plain_zero_eq (prec : Option ContractPrecision) (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  rw [eq_ix2 i]
  exact Cert.LibMatmulPlain.matmul_plain_zero_apply prec A B _ _

/-- Rows of a product: if a small left factor `x0` holds, in its row `j 0`, row `i 0` of the large one `X`, then the small
    product at `j` is the large product at `i` whenever the two indices name the same column. -/
theorem mm_rows {M : Nat} (X : FVec Ideal ⟨2, ![M, k]⟩ φ₁) (W : FVec Ideal ⟨2, ![k, n]⟩ φ₂)
    (x0 : FVec Ideal ⟨2, ![m, k]⟩ φ₁) (j : (⟨2, ![m, n]⟩ : Shape).Idx) (i : (⟨2, ![M, n]⟩ : Shape).Idx)
    (hx : ∀ c : Fin k, x0 (ix2 (j 0) c) = X (ix2 (i 0) c)) (h1 : (j 1 : Fin n) = i 1) : mm x0 W j = mm X W i := by
  unfold mm
  refine Finset.sum_congr rfl fun c _ => ?_
  rw [hx c]
  exact congrArg (fun b : Fin n => X (ix2 (i 0) c) * W (ix2 c b)) h1

end Cert.LibDenseProduct

end
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.Dense.lean ====
/-
  The dense stages of a two-layer graph convolution, entry by entry over the extended reals.

  One layer is out = (A · ((h ⊙ s) W)) ⊙ d + b, where s and d are per-node scales kept as one-column arrays, ⊙ scales
  each row by that row's entry of the column, and A is the sparse aggregation over edges (carried elsewhere as an opaque
  function). The dense pieces are: `proj`, rows scaled and then multiplied by the weights; `finish`, the aggregated rows
  scaled and the bias row added; and between the layers the ELU, fused with the second projection in `actProj`.
  A block of rows of each piece depends on the same rows of its row-indexed operands only.
-/
import proofs.«162123_j40845138985205_1_alg».proof.Proof.LibDenseProduct
import proofs.«162123_j40845138985205_1_alg».proof.Proof.LibRowStat

noncomputable section

namespace Cert.Dense

open Idealize.ShloMosaic Idealize.ShloMosaic.ValueIdx Cert.LibDenseProduct

variable {M K N : Nat}

/-- Row r of `x` times the r-th entry of the column `n`. -/
def scaleRows (x : FVec Ideal ⟨2, ![M, K]⟩ .f32) (n : FVec Ideal ⟨2, ![M, 1]⟩ .f32) : FVec Ideal ⟨2, ![M, K]⟩ .f32 :=
  fun j => x j * n (ix2 (j 0) (0 : Fin 1))

/-- (x ⊙ n) W: entry (r, q) is ∑ c, (x(r,c) · n(r)) · W(c,q). -/
def proj (x : FVec Ideal ⟨2, ![M, K]⟩ .f32) (n : FVec Ideal ⟨2, ![M, 1]⟩ .f32) (w : FVec Ideal ⟨2, ![K, N]⟩ .f32) :
    FVec Ideal ⟨2, ![M, N]⟩ .f32 :=
  mm (scaleRows x n) w

/-- a ⊙ n + b: entry (r, q) is a(r,q) · n(r) + b(q). -/
def finish (a : FVec Ideal ⟨2, ![M, N]⟩ .f32) (n : FVec Ideal ⟨2, ![M, 1]⟩ .f32) (b : FVec Ideal ⟨2, ![1, N]⟩ .f32) :
    FVec Ideal ⟨2, ![M, N]⟩ .f32 :=
  fun j => a j * n (ix2 (j 0) (0 : Fin 1)) + b (ix2 (0 : Fin 1) (j 1))

/-- ELU with unit slope parameter: t where t > 0, exp t − 1 elsewhere. -/
def elu (t : Ideal .f32) : Ideal .f32 :=
  Scalar.select (FloatOps.cmpf .ogt t (Scalar.ofBits (F := Ideal) .f32 0x00000000#32)) t
    (FloatOps.subf (FloatOps.exp t) (Scalar.ofBits (F := Ideal) .f32 0x3F800000#32))

/-- The activated first layer: ELU of `finish`, entry by entry. -/
def act (a : FVec Ideal ⟨2, ![M, N]⟩ .f32) (nd : FVec Ideal ⟨2, ![M, 1]⟩ .f32) (b : FVec Ideal ⟨2, ![1, N]⟩ .f32) :
    FVec Ideal ⟨2, ![M, N]⟩ .f32 :=
  fun j => elu (finish a nd b j)

/-- The first layer's finish and activation fused with the second layer's projection. -/
def actProj {N' : Nat} (a : FVec Ideal ⟨2, ![M, N]⟩ .f32) (nd : FVec Ideal ⟨2, ![M, 1]⟩ .f32) (b : FVec Ideal ⟨2, ![1, N]⟩ .f32)
    (ns : FVec Ideal ⟨2, ![M, 1]⟩ .f32) (w : FVec Ideal ⟨2, ![N, N']⟩ .f32) : FVec Ideal ⟨2, ![M, N']⟩ .f32 :=
  proj (act a nd b) ns w

end Cert.Dense

end
-- ==== Proof.Region0.lean ====
/-
  The first projection kernel's output array as one function of the arrays it is entered with.

  The grid has 20 points; point t stages rows 5000·t … 5000·t + 4999 of the node features and of the source-scale
  column, the whole weight matrix, and writes back the same rows of the output. On one block the body scales each
  row by its entry of the column and multiplies by the weights (the operands' change of format is the identity over
  the extended reals, the accumulator is zero), so each written block is the same rows of `proj` of the whole arrays,
  and the 20 blocks cover the output.
-/
import proofs.«162123_j40845138985205_1_alg».proof.Proof.Gen.KernelIdeal.Frame
import proofs.«162123_j40845138985205_1_alg».proof.Proof.Dense

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Dense Cert.LibDenseProduct

variable (V : (c : Dev nD) → (b : Ref sig .tc) → Buf (Elt Ideal) ((c : Thread nD τ).loc b))

theorem hz2 : (![0, 0] : Fin 2 → Nat) = fun _ => 0 := funext fun a => by fin_cases a <;> rfl

/-- One block's arithmetic: the rows scaled by their column entries, times the weights. -/
theorem pay0_eq (x0 : Vec Ideal S5000x128 .f32) (x1 : Vec Ideal S5000x1 .f32) (x2 : Vec Ideal S128x64 .f32) :
    k0_pay1 x0 x1 x2 = proj x0 x1 x2 := by
  have e : (mulf x0 (broadcastTo S5000x128 (shapeCast S5000x1 x1 shapeCasts_S5000x1_S5000x1) broadcasts_S5000x1_S5000x128)
      : FVec Ideal S5000x128 .f32) = scaleRows x0 x1 := by
    funext j
    obtain ⟨p, q, rfl⟩ : ∃ (p : Fin 5000) (q : Fin 128), j = ix2 p q := ⟨j 0, j 1, eq_ix2 j⟩
    rw [shapeCast_self]
    exact congrArg (x0 (ix2 p q) * ·) (Cert.LibRowStat.broadcastTo_a1_ab_apply x1 broadcasts_S5000x1_S5000x128 p q)
  exact (congrArg (fun A : FVec Ideal ⟨2, ![5000, 128]⟩ .bf16 => matmul (DotDims.plain 5000 128 64) none A
      (x2 : FVec Ideal ⟨2, ![128, 64]⟩ .bf16) (constant (F := Ideal) ⟨2, ![5000, 64]⟩ .f32 0x00000000#32)) e).trans
    (matmul_plain_zero_eq none _ _)

/-- The printed index maps over the grid: the row-blocked windows are at block t, the weights at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of `proj` of the arrays as the region finds them. -/
theorem flushed_eq (c : Dev nD) (t : Fin cfg0.N) :
    (dat0 V c).flushed 3 t = ((cfg0.win 3).blk t).view.read (Elt Ideal)
      (proj (V c main_arg0) (V c main_v13) (V c main_arg3)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S5000x1) hz2, View.ld_unit_zero (S := S128x64) hz2]
  rw [pay0_eq]
  obtain ⟨e00, e01, e10, e11, e20, e21, e30, e31⟩ := idx_facts t
  funext j
  show proj (iblk0 V c 0 t) (iblk0 V c 1 t) (iblk0 V c 2 t) j
    = proj (V c main_arg0) (V c main_v13) (V c main_arg3) (((cfg0.win 3).blk t).view.emb j)
  have hw : (iblk0 V c 2 t : S128x64.Idx → EReal) = V c main_arg3 := by
    funext y
    show V c main_arg3 (((cfg0.win 2).blk t).view.emb y) = V c main_arg3 y
    refine congrArg (V c main_arg3) (funext fun a => Fin.ext ?_)
    match a with
    | ⟨0, _⟩ => show win0_2.index t (0 : Fin 2) * 128 + 1 * (y 0).val = (y 0).val; omega
    | ⟨1, _⟩ => show win0_2.index t (1 : Fin 2) * 64 + 1 * (y 1).val = (y 1).val; omega
  unfold proj
  rw [hw]
  refine mm_rows (scaleRows (V c main_arg0) (V c main_v13)) (V c main_arg3) (scaleRows (iblk0 V c 0 t) (iblk0 V c 1 t)) j
    (((cfg0.win 3).blk t).view.emb j) (fun k => ?_) ?_
  · have h0 : ((cfg0.win 0).blk t).view.emb (ix2 (j 0) k) = ix2 ((((cfg0.win 3).blk t).view.emb j) 0) k := by
      funext a; apply Fin.ext
      match a with
      | ⟨0, _⟩ => show win0_0.index t (0 : Fin 2) * 5000 + 1 * (j 0).val = win0_3.index t (0 : Fin 2) * 5000 + 1 * (j 0).val; omega
      | ⟨1, _⟩ => show win0_0.index t (1 : Fin 2) * 128 + 1 * k.val = k.val; omega
    have h1 : ((cfg0.win 1).blk t).view.emb (ix2 (j 0) (0 : Fin 1)) = ix2 ((((cfg0.win 3).blk t).view.emb j) 0) (0 : Fin 1) := by
      funext a; apply Fin.ext
      match a with
      | ⟨0, _⟩ => show win0_1.index t (0 : Fin 2) * 5000 + 1 * (j 0).val = win0_3.index t (0 : Fin 2) * 5000 + 1 * (j 0).val; omega
      | ⟨1, _⟩ => show win0_1.index t (1 : Fin 2) * 1 + 1 * 0 = 0; omega
    exact congrArg₂ (fun a b : EReal => a * b) (congrArg (V c main_arg0) h0) (congrArg (V c main_v13) h1)
  · apply Fin.ext
    show (j 1).val = win0_3.index t (1 : Fin 2) * 64 + 1 * (j 1).val
    omega

/-- An index of the output array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v14).slice (win0_3.rect t)).set ↔ _
  rw [View.set_slice_whole, Rect.mem_set_unit]
  exact Iff.rfl

/-- The 20 blocks of 5000 rows cover the output: row r is in the block of point r / 5000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 5000 < cfg0.N := by show _ < 20; omega
  obtain ⟨-, -, -, -, -, -, e30, e31⟩ := idx_facts ⟨(i 0).val / 5000, ht⟩
  have q : ((⟨(i 0).val / 5000, ht⟩ : Fin cfg0.N) : Nat) = (i 0).val / 5000 := rfl
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    omega

/-- The output array after the region: `proj` of the arrays the region is entered with. -/
theorem final (c : Dev nD) :
    (dat0 V c).arrAt 3 cfg0.N = proj (V c main_arg0) (V c main_v13) (V c main_arg3) :=
  (dat0 V c).arrAt_eq_of_cover 3 _ (fun t _ => flushed_eq V c t) cover

end Cert.KernelIdeal.Region0

end
-- ==== Proof.Region1.lean ====
/-
  The fused middle kernel's output array as one function of the arrays it is entered with.

  The grid has 20 points; point t stages rows 5000·t … 5000·t + 4999 of the first layer's aggregated features and of
  the two scale columns, the whole bias row and the whole second weight matrix, and writes back the same rows of the
  output. On one block the body finishes the first layer (rows scaled by the destination scale, bias added), applies
  the ELU entry by entry, scales the rows by the source scale and multiplies by the weights into a zero accumulator
  (the operands' change of format is the identity over the extended reals). Each written block is the same rows of
  `actProj` of the whole arrays, and the 20 blocks cover the output.
-/
import proofs.«162123_j40845138985205_1_alg».proof.Proof.Gen.KernelIdeal.Frame
import proofs.«162123_j40845138985205_1_alg».proof.Proof.Dense
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Dense Cert.LibDenseProduct

variable (V : (c : Dev nD) → (b : Ref sig .tc) → Buf (Elt Ideal) ((c : Thread nD τ).loc b))

theorem hz2 : (![0, 0] : Fin 2 → Nat) = fun _ => 0 := funext fun a => by fin_cases a <;> rfl

/-- The first layer's finish on one block, in the body's spelling. -/
theorem finish_spelling (x0 : Vec Ideal S5000x64 .f32) (x1 : Vec Ideal S5000x1 .f32) (x2 : Vec Ideal S1x64 .f32) :
    (addf (mulf (shapeCast S5000x64 x0 shapeCasts_S5000x64_S5000x64)
        (broadcastTo S5000x64 (shapeCast S5000x1 x1 shapeCasts_S5000x1_S5000x1) broadcasts_S5000x1_S5000x64))
      (broadcastTo S5000x64 (shapeCast S1x64 x2 shapeCasts_S1x64_S1x64) broadcasts_S1x64_S5000x64)
      : FVec Ideal S5000x64 .f32) = finish x0 x1 x2 := by
  funext j
  obtain ⟨p, q, rfl⟩ : ∃ (p : Fin 5000) (q : Fin 64), j = ix2 p q := ⟨j 0, j 1, eq_ix2 j⟩
  rw [shapeCast_self, shapeCast_self, shapeCast_self]
  exact congrArg₂ (fun a b : EReal => a + b)
    (congrArg (x0 (ix2 p q) * ·) (Cert.LibRowStat.broadcastTo_a1_ab_apply x1 broadcasts_S5000x1_S5000x64 p q))
    (broadcastTo_1b_ab_apply x2 broadcasts_S1x64_S5000x64 p q)

/-- The body's activation and row scaling of a block `t`: t where t > 0 and exp t − 1 elsewhere, then each row times
    its entry of the column. -/
def actScale (t : FVec Ideal S5000x64 .f32) (x3 : Vec Ideal S5000x1 .f32) : FVec Ideal S5000x64 .f32 :=
  mulf (select (cmpf .ogt t (broadcast S5000x64 (Scalar.ofBits (F := Ideal) .f32 0x00000000#32))) t
      (subf (exp t) (broadcast S5000x64 (Scalar.ofBits (F := Ideal) .f32 0x3F800000#32))))
    (broadcastTo S5000x64 (shapeCast S5000x1 x3 shapeCasts_S5000x1_S5000x1) broadcasts_S5000x1_S5000x64)

theorem actScale_eq (t : FVec Ideal S5000x64 .f32) (x3 : Vec Ideal S5000x1 .f32) :
    actScale t x3 = scaleRows (fun j => elu (t j)) x3 := by
  funext j
  obtain ⟨p, q, rfl⟩ : ∃ (p : Fin 5000) (q : Fin 64), j = ix2 p q := ⟨j 0, j 1, eq_ix2 j⟩
  unfold actScale
  rw [shapeCast_self]
  exact congrArg (elu (t (ix2 p q)) * ·) (Cert.LibRowStat.broadcastTo_a1_ab_apply x3 broadcasts_S5000x1_S5000x64 p q)

/-- One block's arithmetic is `actProj` of the block's five operands. -/
theorem pay1_eq (x0 : Vec Ideal S5000x64 .f32) (x1 : Vec Ideal S5000x1 .f32) (x2 : Vec Ideal S1x64 .f32)
    (x3 : Vec Ideal S5000x1 .f32) (x4 : Vec Ideal S64x64 .f32) :
    k1_pay1 x0 x1 x2 x3 x4 = actProj x0 x1 x2 x3 x4 := by
  have e : actScale (addf (mulf (shapeCast S5000x64 x0 shapeCasts_S5000x64_S5000x64)
        (broadcastTo S5000x64 (shapeCast S5000x1 x1 shapeCasts_S5000x1_S5000x1) broadcasts_S5000x1_S5000x64))
      (broadcastTo S5000x64 (shapeCast S1x64 x2 shapeCasts_S1x64_S1x64) broadcasts_S1x64_S5000x64)) x3
      = scaleRows (act x0 x1 x2) x3 :=
    (congrArg (fun t => actScale t x3) (finish_spelling x0 x1 x2)).trans (actScale_eq (finish x0 x1 x2) x3)
  exact (congrArg (fun A : FVec Ideal ⟨2, ![5000, 64]⟩ .bf16 => matmul (DotDims.plain 5000 64 64) none A
      (x4 : FVec Ideal ⟨2, ![64, 64]⟩ .bf16) (constant (F := Ideal) ⟨2, ![5000, 64]⟩ .f32 0x00000000#32)) e).trans
    (matmul_plain_zero_eq none _ _)

/-- The printed index maps over the grid: the row-blocked windows are at block t, the bias row and the weights at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of `actProj` of the arrays as the region finds them. -/
theorem flushed_eq (c : Dev nD) (t : Fin cfg1.N) :
    (dat1 V c).flushed 5 t = ((cfg1.win 5).blk t).view.read (Elt Ideal)
      (actProj (V c main_v24) (V c main_v25) (V c main_v27) (V c main_v26) (V c main_arg5)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S5000x1) hz2, View.ld_unit_zero (S := S1x64) hz2,
    View.ld_unit_zero (S := S64x64) hz2]
  rw [pay1_eq]
  obtain ⟨e00, e01, e10, e11, e20, e21, e30, e31, e40, e41, e50, e51⟩ := idx_facts t
  funext j
  show actProj (iblk1 V c 0 t) (iblk1 V c 1 t) (iblk1 V c 2 t) (iblk1 V c 3 t) (iblk1 V c 4 t) j
    = actProj (V c main_v24) (V c main_v25) (V c main_v27) (V c main_v26) (V c main_arg5) (((cfg1.win 5).blk t).view.emb j)
  have hw : (iblk1 V c 4 t : S64x64.Idx → EReal) = V c main_arg5 := by
    funext y
    show V c main_arg5 (((cfg1.win 4).blk t).view.emb y) = V c main_arg5 y
    refine congrArg (V c main_arg5) (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  unfold actProj proj
  rw [hw]
  refine mm_rows (scaleRows (act (V c main_v24) (V c main_v25) (V c main_v27)) (V c main_v26)) (V c main_arg5)
    (scaleRows (act (iblk1 V c 0 t) (iblk1 V c 1 t) (iblk1 V c 2 t)) (iblk1 V c 3 t)) j
    (((cfg1.win 5).blk t).view.emb j) (fun k => ?_) ?_
  · have h0 : ((cfg1.win 0).blk t).view.emb (ix2 (j 0) k) = ix2 ((((cfg1.win 5).blk t).view.emb j) 0) k := by
      funext a; apply Fin.ext
      match a with
      | ⟨0, _⟩ => show win1_0.index t (0 : Fin 2) * 5000 + 1 * (j 0).val = win1_5.index t (0 : Fin 2) * 5000 + 1 * (j 0).val; omega
      | ⟨1, _⟩ => show win1_0.index t (1 : Fin 2) * 64 + 1 * k.val = k.val; omega
    have h1 : ((cfg1.win 1).blk t).view.emb (ix2 (j 0) (0 : Fin 1)) = ix2 ((((cfg1.win 5).blk t).view.emb j) 0) (0 : Fin 1) := by
      funext a; apply Fin.ext
      match a with
      | ⟨0, _⟩ => show win1_1.index t (0 : Fin 2) * 5000 + 1 * (j 0).val = win1_5.index t (0 : Fin 2) * 5000 + 1 * (j 0).val; omega
      | ⟨1, _⟩ => show win1_1.index t (1 : Fin 2) * 1 + 1 * 0 = 0; omega
    have h2 : ((cfg1.win 2).blk t).view.emb (ix2 (0 : Fin 1) k) = ix2 (0 : Fin 1) k := by
      funext a; apply Fin.ext
      match a with
      | ⟨0, _⟩ => show win1_2.index t (0 : Fin 2) * 1 + 1 * 0 = 0; omega
      | ⟨1, _⟩ => show win1_2.index t (1 : Fin 2) * 64 + 1 * k.val = k.val; omega
    have h3 : ((cfg1.win 3).blk t).view.emb (ix2 (j 0) (0 : Fin 1)) = ix2 ((((cfg1.win 5).blk t).view.emb j) 0) (0 : Fin 1) := by
      funext a; apply Fin.ext
      match a with
      | ⟨0, _⟩ => show win1_3.index t (0 : Fin 2) * 5000 + 1 * (j 0).val = win1_5.index t (0 : Fin 2) * 5000 + 1 * (j 0).val; omega
      | ⟨1, _⟩ => show win1_3.index t (1 : Fin 2) * 1 + 1 * 0 = 0; omega
    exact congrArg₂ (fun a b : EReal => a * b)
      (congrArg elu (congrArg₂ (fun a b : EReal => a + b)
        (congrArg₂ (fun a b : EReal => a * b) (congrArg (V c main_v24) h0) (congrArg (V c main_v25) h1))
        (congrArg (V c main_v27) h2)))
      (congrArg (V c main_v26) h3)
  · apply Fin.ext
    show (j 1).val = win1_5.index t (1 : Fin 2) * 64 + 1 * (j 1).val
    omega

/-- An index of the output array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v28).slice (win1_5.rect t)).set ↔ _
  rw [View.set_slice_whole, Rect.mem_set_unit]
  exact Iff.rfl

/-- The 20 blocks of 5000 rows cover the output: row r is in the block of point r / 5000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 5000 < cfg1.N := by show _ < 20; omega
  obtain ⟨-, -, -, -, -, -, -, -, -, -, e50, e51⟩ := idx_facts ⟨(i 0).val / 5000, ht⟩
  have q : ((⟨(i 0).val / 5000, ht⟩ : Fin cfg1.N) : Nat) = (i 0).val / 5000 := rfl
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    omega

/-- The output array after the region: `actProj` of the arrays the region is entered with. -/
theorem final (c : Dev nD) :
    (dat1 V c).arrAt 5 cfg1.N = actProj (V c main_v24) (V c main_v25) (V c main_v27) (V c main_v26) (V c main_arg5) :=
  (dat1 V c).arrAt_eq_of_cover 5 _ (fun t _ => flushed_eq V c t) cover

end Cert.KernelIdeal.Region1

end
-- ==== Proof.Region2.lean ====
/-
  The last kernel's output array as one function of the arrays it is entered with.

  The grid has 20 points; point t stages rows 5000·t … 5000·t + 4999 of the aggregated features and of the
  destination-scale column, the whole bias row, and writes back the same rows of the output. On one block the body scales
  each row by its entry of the column and adds the bias row, so each written block is the same rows of `finish` of the
  whole arrays, and the 20 blocks cover the output.
-/
import proofs.«162123_j40845138985205_1_alg».proof.Proof.Gen.KernelIdeal.Frame
import proofs.«162123_j40845138985205_1_alg».proof.Proof.Dense
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Dense

variable (V : (c : Dev nD) → (b : Ref sig .tc) → Buf (Elt Ideal) ((c : Thread nD τ).loc b))

theorem hz2 : (![0, 0] : Fin 2 → Nat) = fun _ => 0 := funext fun a => by fin_cases a <;> rfl

/-- One block's arithmetic, in the body's spelling, is `finish` of the block's three operands. -/
theorem finish_spelling (x0 : Vec Ideal S5000x64 .f32) (x1 : Vec Ideal S5000x1 .f32) (x2 : Vec Ideal S1x64 .f32) :
    (addf (mulf (shapeCast S5000x64 x0 shapeCasts_S5000x64_S5000x64)
        (broadcastTo S5000x64 (shapeCast S5000x1 x1 shapeCasts_S5000x1_S5000x1) broadcasts_S5000x1_S5000x64))
      (broadcastTo S5000x64 (shapeCast S1x64 x2 shapeCasts_S1x64_S1x64) broadcasts_S1x64_S5000x64)
      : FVec Ideal S5000x64 .f32) = finish x0 x1 x2 := by
  funext j
  obtain ⟨p, q, rfl⟩ : ∃ (p : Fin 5000) (q : Fin 64), j = ix2 p q := ⟨j 0, j 1, eq_ix2 j⟩
  rw [shapeCast_self, shapeCast_self, shapeCast_self]
  exact congrArg₂ (fun a b : EReal => a + b)
    (congrArg (x0 (ix2 p q) * ·) (Cert.LibRowStat.broadcastTo_a1_ab_apply x1 broadcasts_S5000x1_S5000x64 p q))
    (broadcastTo_1b_ab_apply x2 broadcasts_S1x64_S5000x64 p q)

theorem pay2_eq (x0 : Vec Ideal S5000x64 .f32) (x1 : Vec Ideal S5000x1 .f32) (x2 : Vec Ideal S1x64 .f32) :
    k2_pay1 x0 x1 x2 = finish x0 x1 x2 := finish_spelling x0 x1 x2

/-- The printed index maps over the grid: the row-blocked windows are at block t, the bias row at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of `finish` of the arrays as the region finds them. -/
theorem flushed_eq (c : Dev nD) (t : Fin cfg2.N) :
    (dat2 V c).flushed 3 t = ((cfg2.win 3).blk t).view.read (Elt Ideal)
      (finish (V c main_v38) (V c main_v39) (V c main_v40)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S5000x1) hz2, View.ld_unit_zero (S := S1x64) hz2]
  rw [pay2_eq]
  obtain ⟨e00, e01, e10, e11, e20, e21, e30, e31⟩ := idx_facts t
  funext j
  show finish (iblk2 V c 0 t) (iblk2 V c 1 t) (iblk2 V c 2 t) j
    = finish (V c main_v38) (V c main_v39) (V c main_v40) (((cfg2.win 3).blk t).view.emb j)
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb (ix2 (j 0) (0 : Fin 1)) = ix2 ((((cfg2.win 3).blk t).view.emb j) 0) (0 : Fin 1) := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  have h2 : ((cfg2.win 2).blk t).view.emb (ix2 (0 : Fin 1) (j 1)) = ix2 (0 : Fin 1) ((((cfg2.win 3).blk t).view.emb j) 1) := by
    funext a; apply Fin.ext
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega
  exact congrArg₂ (fun a b : EReal => a + b)
    (congrArg₂ (fun a b : EReal => a * b) (congrArg (V c main_v38) h0) (congrArg (V c main_v39) h1))
    (congrArg (V c main_v40) h2)

/-- An index of the output array is in point t's block iff each coordinate is in the block's range on its axis. -/
theorem mem_blk (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v41).slice (win2_3.rect t)).set ↔ _
  rw [View.set_slice_whole, Rect.mem_set_unit]
  exact Iff.rfl

/-- The 20 blocks of 5000 rows cover the output: row r is in the block of point r / 5000. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have ht : (i 0).val / 5000 < cfg2.N := by show _ < 20; omega
  obtain ⟨-, -, -, -, -, -, e30, e31⟩ := idx_facts ⟨(i 0).val / 5000, ht⟩
  have q : ((⟨(i 0).val / 5000, ht⟩ : Fin cfg2.N) : Nat) = (i 0).val / 5000 := rfl
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    omega
  | ⟨1, _⟩ =>
    show win2_3.index ⟨(i 0).val / 5000, ht⟩ (1 : Fin 2) * 64 ≤ (i 1).val
      ∧ (i 1).val < win2_3.index ⟨(i 0).val / 5000, ht⟩ (1 : Fin 2) * 64 + 64
    omega

/-- The output array after the region: `finish` of the arrays the region is entered with. -/
theorem final (c : Dev nD) :
    (dat2 V c).arrAt 3 cfg2.N = finish (V c main_v38) (V c main_v39) (V c main_v40) :=
  (dat2 V c).arrAt_eq_of_cover 3 _ (fun t _ => flushed_eq V c t) cover

end Cert.KernelIdeal.Region2

end
-- ==== Proof.HostParts.lean ====
/-
  The sparse host stages both programs share, as functions of the edge lists.

  `nodeScale idx` is the per-node scale of the symmetric normalisation: the number of edges whose endpoint `idx` is the
  node (a scatter-add of ones into zeros), at least one, to the power −1/2. `aggregate src dst x` gathers row `src e` of
  `x` for every edge `e` (a negative index counted from the end) and scatter-adds it into row `dst e` of zeros. `col` and
  `row` are the reshapes of a per-node vector to a one-column array and of a bias to a one-row array. None of these is
  ever opened: the two programs apply them to equal operands.
-/
import proofs.«162123_j40845138985205_1_alg».proof.Proof.Gen.KernelIdeal
import Idealize.ShloMosaic.PureOps.Ideal

noncomputable section

namespace Cert.KernelIdeal.HostParts

open Cert.KernelIdeal Cert.KernelIdeal.Gen Idealize.ShloMosaic

abbrev EdgeIdx := (⟨S1600000, .i32⟩ : BufTy).Contents (Elt Ideal)
abbrev NodeVec := (⟨S100000, .f32⟩ : BufTy).Contents (Elt Ideal)
abbrev NodeCol := (⟨S100000x1, .f32⟩ : BufTy).Contents (Elt Ideal)
abbrev Feat := (⟨S100000x64, .f32⟩ : BufTy).Contents (Elt Ideal)
abbrev Bias := (⟨S64, .f32⟩ : BufTy).Contents (Elt Ideal)
abbrev BiasRow := (⟨S1x64, .f32⟩ : BufTy).Contents (Elt Ideal)

/-- rsqrt (max (number of edges ending at the node, 1)), per node. -/
def nodeScale (idx : EdgeIdx) : NodeVec :=
  Host.rsqrt (F := Ideal) (maximumf (F := Ideal)
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32)))
    (broadcastInDim S100000 ![] bcast_S_S100000 (constant (F := Ideal) S_ .f32 0x3F800000#32)))

/-- The edge list's source indices with a negative index counted from the end, as a one-column index array. -/
def gatherIdx (src : EdgeIdx) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32)))
      src)

/-- Row `dst e` of the result collects row `src e` of `x`, summed over the edges `e`. -/
def aggregate (src dst : EdgeIdx) (x : Feat) : Feat :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x (gatherIdx src))

/-- A per-node vector as a one-column array. -/
def col (v : NodeVec) : NodeCol := shapeCast S100000x1 v shapeCasts_S100000_S100000x1

/-- A bias as a one-row array. -/
def row (b : Bias) : BiasRow := shapeCast S1x64 b shapeCasts_S64_S1x64

end Cert.KernelIdeal.HostParts

end
-- ==== Proof.KerFold.lean ====
/-
  The idealized kernel program's result buffer as one function of the argument arrays.

  The last boundary's contents are the launch contents folded through three stretches of host operations and three
  regions. Read back one segment at a time: a host stretch leaves each buffer it writes at its operation's value of the
  operands and every other buffer as it was; a region leaves its output array at the kernel's whole-array function of its
  input arrays and every buffer that is not one of its arrays as it was. Composed, the result is the second layer's
  `finish` of the aggregation of the fused middle stage of the aggregation of the first projection, with the two per-node
  scales computed from the edge lists.
-/
import proofs.«162123_j40845138985205_1_alg».proof.Proof.Region0
import proofs.«162123_j40845138985205_1_alg».proof.Proof.Region1
import proofs.«162123_j40845138985205_1_alg».proof.Proof.Region2
import proofs.«162123_j40845138985205_1_alg».proof.Proof.HostParts
import Idealize.ShloMosaic.Lib.StableHlo.Run

set_option maxRecDepth 16384

noncomputable section

namespace Cert.KernelIdeal.KerFold

open Cert.KernelIdeal Cert.KernelIdeal.Gen Cert.KernelIdeal.HostParts
open Idealize.ShloMosaic Idealize.ShloMosaic.TcCoe Idealize.ShloMosaic.StableHlo
open Idealize.SL.Sem
open Cert.Dense

variable (m : (ℓ : Loc nD τ sig) → Buf (Elt Ideal) ℓ) (ρ : Dev nD → PrngReg) (c : Dev nD)

/-- The whole program's result as a function of the seven argument arrays. -/
def kerOut (h : (⟨S100000x128, .f32⟩ : BufTy).Contents (Elt Ideal)) (src dst : EdgeIdx)
    (w1 : (⟨S128x64, .f32⟩ : BufTy).Contents (Elt Ideal)) (b1 : Bias)
    (w2 : (⟨S64x64, .f32⟩ : BufTy).Contents (Elt Ideal)) (b2 : Bias) : Feat :=
  finish (aggregate src dst
      (actProj (aggregate src dst (proj h (col (nodeScale src)) w1)) (col (nodeScale dst)) (row b1) (col (nodeScale src)) w2))
    (col (nodeScale dst)) (row b2)

/-! ## The first host stretch: the two scales -/
theorem W1_arg0 : W1 m ρ c (Proc.devRef .tc main_arg0) = m ((c : Thread nD τ).loc main_arg0) := by
  show StableHlo.after hostOps0 (W0 m ρ c) (Proc.devRef .tc main_arg0) = _
  after_results
theorem W1_arg1 : W1 m ρ c (Proc.devRef .tc main_arg1) = m ((c : Thread nD τ).loc main_arg1) := by
  show StableHlo.after hostOps0 (W0 m ρ c) (Proc.devRef .tc main_arg1) = _
  after_results
theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg4 : W1 m ρ c (Proc.devRef .tc main_arg4) = m ((c : Thread nD τ).loc main_arg4) := by
  show StableHlo.after hostOps0 (W0 m ρ c) (Proc.devRef .tc main_arg4) = _
  after_results
theorem W1_arg5 : W1 m ρ c (Proc.devRef .tc main_arg5) = m ((c : Thread nD τ).loc main_arg5) := by
  show StableHlo.after hostOps0 (W0 m ρ c) (Proc.devRef .tc main_arg5) = _
  after_results
theorem W1_arg6 : W1 m ρ c (Proc.devRef .tc main_arg6) = m ((c : Thread nD τ).loc main_arg6) := by
  show StableHlo.after hostOps0 (W0 m ρ c) (Proc.devRef .tc main_arg6) = _
  after_results
theorem W1_v9 : W1 m ρ c (Proc.devRef .tc main_v9) = nodeScale (m ((c : Thread nD τ).loc main_arg1)) := by
  show StableHlo.after hostOps0 (W0 m ρ c) (Proc.devRef .tc main_v9) = _
  after_results
  rfl
theorem W1_v12 : W1 m ρ c (Proc.devRef .tc main_v12) = nodeScale (m ((c : Thread nD τ).loc main_arg2)) := by
  show StableHlo.after hostOps0 (W0 m ρ c) (Proc.devRef .tc main_v12) = _
  after_results
  rfl
theorem W1_v13 : W1 m ρ c (Proc.devRef .tc main_v13) = col (nodeScale (m ((c : Thread nD τ).loc main_arg1))) := by
  show StableHlo.after hostOps0 (W0 m ρ c) (Proc.devRef .tc main_v13) = _
  after_results
  rfl

/-! ## The first region: the projection -/

theorem W2_v14 : W2 m ρ c (Proc.devRef .tc main_v14)
    = proj (m ((c : Thread nD τ).loc main_arg0)) (col (nodeScale (m ((c : Thread nD τ).loc main_arg1)))) (m ((c : Thread nD τ).loc main_arg3)) := by
  refine ((W2_arr m ρ c 3).trans (Region0.final (V1 m ρ) c)).trans ?_
  show proj (W1 m ρ c (Proc.devRef .tc main_arg0)) (W1 m ρ c (Proc.devRef .tc main_v13)) (W1 m ρ c (Proc.devRef .tc main_arg3)) = _
  rw [W1_arg0, W1_v13, W1_arg3]
theorem W2_arg1 : W2 m ρ c (Proc.devRef .tc main_arg1) = W1 m ρ c (Proc.devRef .tc main_arg1) := W2_of_ne m ρ c main_arg1 (by decide)
theorem W2_arg2 : W2 m ρ c (Proc.devRef .tc main_arg2) = W1 m ρ c (Proc.devRef .tc main_arg2) := W2_of_ne m ρ c main_arg2 (by decide)
theorem W2_v12 : W2 m ρ c (Proc.devRef .tc main_v12) = W1 m ρ c (Proc.devRef .tc main_v12) := W2_of_ne m ρ c main_v12 (by decide)
theorem W2_v9 : W2 m ρ c (Proc.devRef .tc main_v9) = W1 m ρ c (Proc.devRef .tc main_v9) := W2_of_ne m ρ c main_v9 (by decide)
theorem W2_arg4 : W2 m ρ c (Proc.devRef .tc main_arg4) = W1 m ρ c (Proc.devRef .tc main_arg4) := W2_of_ne m ρ c main_arg4 (by decide)
theorem W2_arg5 : W2 m ρ c (Proc.devRef .tc main_arg5) = W1 m ρ c (Proc.devRef .tc main_arg5) := W2_of_ne m ρ c main_arg5 (by decide)
theorem W2_arg6 : W2 m ρ c (Proc.devRef .tc main_arg6) = W1 m ρ c (Proc.devRef .tc main_arg6) := W2_of_ne m ρ c main_arg6 (by decide)

/-! ## The second host stretch: the first aggregation and the middle kernel's columns and row -/

theorem W3_v24 : W3 m ρ c (Proc.devRef .tc main_v24)
    = aggregate (W2 m ρ c (Proc.devRef .tc main_arg1)) (W2 m ρ c (Proc.devRef .tc main_arg2)) (W2 m ρ c (Proc.devRef .tc main_v14)) := by
  show StableHlo.after hostOps1 (W2 m ρ c) (Proc.devRef .tc main_v24) = _
  after_results
  rfl
theorem W3_v25 : W3 m ρ c (Proc.devRef .tc main_v25) = col (W2 m ρ c (Proc.devRef .tc main_v12)) := by
  show StableHlo.after hostOps1 (W2 m ρ c) (Proc.devRef .tc main_v25) = _
  after_results
  rfl
theorem W3_v26 : W3 m ρ c (Proc.devRef .tc main_v26) = col (W2 m ρ c (Proc.devRef .tc main_v9)) := by
  show StableHlo.after hostOps1 (W2 m ρ c) (Proc.devRef .tc main_v26) = _
  after_results
  rfl
theorem W3_v27 : W3 m ρ c (Proc.devRef .tc main_v27) = row (W2 m ρ c (Proc.devRef .tc main_arg4)) := by
  show StableHlo.after hostOps1 (W2 m ρ c) (Proc.devRef .tc main_v27) = _
  after_results
  rfl
theorem W3_arg5 : W3 m ρ c (Proc.devRef .tc main_arg5) = W2 m ρ c (Proc.devRef .tc main_arg5) := by
  show StableHlo.after hostOps1 (W2 m ρ c) (Proc.devRef .tc main_arg5) = _
  after_results
theorem W3_arg1 : W3 m ρ c (Proc.devRef .tc main_arg1) = W2 m ρ c (Proc.devRef .tc main_arg1) := by
  show StableHlo.after hostOps1 (W2 m ρ c) (Proc.devRef .tc main_arg1) = _
  after_results
theorem W3_arg2 : W3 m ρ c (Proc.devRef .tc main_arg2) = W2 m ρ c (Proc.devRef .tc main_arg2) := by
  show StableHlo.after hostOps1 (W2 m ρ c) (Proc.devRef .tc main_arg2) = _
  after_results
theorem W3_v12 : W3 m ρ c (Proc.devRef .tc main_v12) = W2 m ρ c (Proc.devRef .tc main_v12) := by
  show StableHlo.after hostOps1 (W2 m ρ c) (Proc.devRef .tc main_v12) = _
  after_results
theorem W3_arg6 : W3 m ρ c (Proc.devRef .tc main_arg6) = W2 m ρ c (Proc.devRef .tc main_arg6) := by
  show StableHlo.after hostOps1 (W2 m ρ c) (Proc.devRef .tc main_arg6) = _
  after_results

/-! ## The second region: finish, activation and the second projection -/

theorem W4_v28 : W4 m ρ c (Proc.devRef .tc main_v28)
    = actProj (W3 m ρ c (Proc.devRef .tc main_v24)) (W3 m ρ c (Proc.devRef .tc main_v25)) (W3 m ρ c (Proc.devRef .tc main_v27))
        (W3 m ρ c (Proc.devRef .tc main_v26)) (W3 m ρ c (Proc.devRef .tc main_arg5)) :=
  (W4_arr m ρ c 5).trans (Region1.final (V3 m ρ) c)
theorem W4_arg1 : W4 m ρ c (Proc.devRef .tc main_arg1) = W3 m ρ c (Proc.devRef .tc main_arg1) := W4_of_ne m ρ c main_arg1 (by decide)
theorem W4_arg2 : W4 m ρ c (Proc.devRef .tc main_arg2) = W3 m ρ c (Proc.devRef .tc main_arg2) := W4_of_ne m ρ c main_arg2 (by decide)
theorem W4_v12 : W4 m ρ c (Proc.devRef .tc main_v12) = W3 m ρ c (Proc.devRef .tc main_v12) := W4_of_ne m ρ c main_v12 (by decide)
theorem W4_arg6 : W4 m ρ c (Proc.devRef .tc main_arg6) = W3 m ρ c (Proc.devRef .tc main_arg6) := W4_of_ne m ρ c main_arg6 (by decide)

/-! ## The third host stretch: the second aggregation and the last kernel's column and row -/

theorem W5_v38 : W5 m ρ c (Proc.devRef .tc main_v38)
    = aggregate (W4 m ρ c (Proc.devRef .tc main_arg1)) (W4 m ρ c (Proc.devRef .tc main_arg2)) (W4 m ρ c (Proc.devRef .tc main_v28)) := by
  show StableHlo.after hostOps2 (W4 m ρ c) (Proc.devRef .tc main_v38) = _
  after_results
  rfl
theorem W5_v39 : W5 m ρ c (Proc.devRef .tc main_v39) = col (W4 m ρ c (Proc.devRef .tc main_v12)) := by
  show StableHlo.after hostOps2 (W4 m ρ c) (Proc.devRef .tc main_v39) = _
  after_results
  rfl
theorem W5_v40 : W5 m ρ c (Proc.devRef .tc main_v40) = row (W4 m ρ c (Proc.devRef .tc main_arg6)) := by
  show StableHlo.after hostOps2 (W4 m ρ c) (Proc.devRef .tc main_v40) = _
  after_results
  rfl

/-! ## The third region, and the whole fold -/

theorem W6_v41 : W6 m ρ c (Proc.devRef .tc main_v41)
    = finish (W5 m ρ c (Proc.devRef .tc main_v38)) (W5 m ρ c (Proc.devRef .tc main_v39)) (W5 m ρ c (Proc.devRef .tc main_v40)) :=
  (W6_arr m ρ c 3).trans (Region2.final (V5 m ρ) c)

/-- The result buffer at the last boundary is `kerOut` of the argument arrays as launched. -/
theorem result_eq : W6 m ρ c (Proc.devRef .tc main_v41)
    = kerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [W6_v41, W5_v38, W5_v39, W5_v40, W4_v28, W4_arg1, W4_arg2, W4_v12, W4_arg6,
    W3_v24, W3_v25, W3_v26, W3_v27, W3_arg5, W3_arg1, W3_arg2, W3_v12, W3_arg6,
    W2_v14, W2_arg1, W2_arg2, W2_v12, W2_v9, W2_arg4, W2_arg5, W2_arg6,
    W1_v9, W1_v12, W1_arg1, W1_arg2, W1_arg4, W1_arg5, W1_arg6]
  rfl

end Cert.KernelIdeal.KerFold

end
-- ==== Proof.RefRun.lean ====
/-
  The reference program's @main as one straight line of host operations, and its run.

  The reference is two graph-convolution layers. @main is printed in two consecutive parts and calls an outlined ELU,
  which in turn calls two outlined selections; with the callees' operations written at their call sites over the call's
  own buffers the whole of @main is a list of 97 host operations. Every weakly fair execution then terminates with each
  buffer at the fold of these operations over the launch contents.
-/
import proofs.«162123_j40845138985205_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the ELU's and the selections' written where they are called, over the call's own
    buffers (a typed reference to a literal buffer is that buffer, and its transport of contents the identity). -/
abbrev ops : List (HloOp τ sig (Elt F)) :=
  [
    StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v4 (broadcastInDim S100000 ![] bcast_S_S100000 : (⟨S_, .f32⟩ : BufTy).Contents (Elt F) → (⟨S100000, .f32⟩ : BufTy).Contents (Elt F)),
    StableHlo.unary main_arg2 main_v5 (broadcastInDim S1600000x1 ![0] bcast_S1600000_S1600000x1_0 : (⟨S1600000, .i32⟩ : BufTy).Contents (Elt F) → (⟨S1600000x1, .i32⟩ : BufTy).Contents (Elt F)),
    StableHlo.ternary main_v4 main_v5 main_v0 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.unary main_cst_2 main_v7 (broadcastInDim S100000 ![] bcast_S_S100000 : (⟨S_, .f32⟩ : BufTy).Contents (Elt F) → (⟨S100000, .f32⟩ : BufTy).Contents (Elt F)),
    StableHlo.binary main_v3 main_v7 main_v8 (maximumf : (⟨S100000, .f32⟩ : BufTy).Contents (Elt F) → (⟨S100000, .f32⟩ : BufTy).Contents (Elt F) → (⟨S100000, .f32⟩ : BufTy).Contents (Elt F)),
    StableHlo.unary main_v8 main_v9 (Host.rsqrt : (⟨S100000, .f32⟩ : BufTy).Contents (Elt F) → (⟨S100000, .f32⟩ : BufTy).Contents (Elt F)),
    StableHlo.nullary main_cst_3 (constant S_ .f32 0x3F800000#32),
    StableHlo.unary main_cst_3 main_v10 (broadcastInDim S100000 ![] bcast_S_S100000 : (⟨S_, .f32⟩ : BufTy).Contents (Elt F) → (⟨S100000, .f32⟩ : BufTy).Contents (Elt F)),
    StableHlo.binary main_v6 main_v10 main_v11 (maximumf : (⟨S100000, .f32⟩ : BufTy).Contents (Elt F) → (⟨S100000, .f32⟩ : BufTy).Contents (Elt F) → (⟨S100000, .f32⟩ : BufTy).Contents (Elt F)),
    StableHlo.unary main_v11 main_v12 (Host.rsqrt : (⟨S100000, .f32⟩ : BufTy).Contents (Elt F) → (⟨S100000, .f32⟩ : BufTy).Contents (Elt F)),
    StableHlo.unary main_v9 main_v13 (broadcastInDim S100000x1 ![0] bcast_S100000_S100000x1_0 : (⟨S100000, .f32⟩ : BufTy).Contents (Elt F) → (⟨S100000x1, .f32⟩ : BufTy).Contents (Elt F)),
    StableHlo.unary main_v13 main_v14 (broadcastInDim S100000x128 ![0, 1] bcast_S100000x1_S100000x128_0_1 : (⟨S100000x1, .f32⟩ : BufTy).Contents (Elt F) → (⟨S100000x128, .f32⟩ : BufTy).Contents (Elt F)),
    StableHlo.binary main_arg0 main_v14 main_v15 (mulf : (⟨S100000x128, .f32⟩ : BufTy).Contents (Elt F) → (⟨S100000x128, .f32⟩ : BufTy).Contents (Elt F) → (⟨S100000x128, .f32⟩ : BufTy).Contents (Elt F)),
    StableHlo.binary main_v15 main_arg3 main_v16 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_c (constantI S_ 32 0#32),
    StableHlo.unary main_c main_v17 (broadcastInDim S1600000 ![] bcast_S_S1600000 : (⟨S_, .i32⟩ : BufTy).Contents (Elt F) → (⟨S1600000, .i32⟩ : BufTy).Contents (Elt F)),
    StableHlo.binary main_arg1 main_v17 main_v18 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v19 (broadcastInDim S1600000 ![] bcast_S_S1600000 : (⟨S_, .i32⟩ : BufTy).Contents (Elt F) → (⟨S1600000, .i32⟩ : BufTy).Contents (Elt F)),
    StableHlo.binary main_arg1 main_v19 main_v20 (addi : (⟨S1600000, .i32⟩ : BufTy).Contents (Elt F) → (⟨S1600000, .i32⟩ : BufTy).Contents (Elt F) → (⟨S1600000, .i32⟩ : BufTy).Contents (Elt F)),
    StableHlo.ternary main_v18 main_v20 main_arg1 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v21 main_v22 (broadcastInDim S1600000x1 ![0] bcast_S1600000_S1600000x1_0 : (⟨S1600000, .i32⟩ : BufTy).Contents (Elt F) → (⟨S1600000x1, .i32⟩ : BufTy).Contents (Elt F)),
    StableHlo.binary main_v16 main_v22 main_v23 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_5 (constant S_ .f32 0x00000000#32),
    StableHlo.unary main_cst_5 main_v24 (broadcastInDim S100000x64 ![] bcast_S_S100000x64 : (⟨S_, .f32⟩ : BufTy).Contents (Elt F) → (⟨S100000x64, .f32⟩ : BufTy).Contents (Elt F)),
    StableHlo.unary main_arg2 main_v25 (broadcastInDim S1600000x1 ![0] bcast_S1600000_S1600000x1_0 : (⟨S1600000, .i32⟩ : BufTy).Contents (Elt F) → (⟨S1600000x1, .i32⟩ : BufTy).Contents (Elt F)),
    StableHlo.ternary main_v24 main_v25 main_v23 main_v26 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v12 main_v27 (broadcastInDim S100000x1 ![0] bcast_S100000_S100000x1_0 : (⟨S100000, .f32⟩ : BufTy).Contents (Elt F) → (⟨S100000x1, .f32⟩ : BufTy).Contents (Elt F)),
    StableHlo.unary main_v27 main_v28 (broadcastInDim S100000x64 ![0, 1] bcast_S100000x1_S100000x64_0_1 : (⟨S100000x1, .f32⟩ : BufTy).Contents (Elt F) → (⟨S100000x64, .f32⟩ : BufTy).Contents (Elt F)),
    StableHlo.binary main_v26 main_v28 main_v29 (mulf : (⟨S100000x64, .f32⟩ : BufTy).Contents (Elt F) → (⟨S100000x64, .f32⟩ : BufTy).Contents (Elt F) → (⟨S100000x64, .f32⟩ : BufTy).Contents (Elt F)),
    StableHlo.unary main_arg4 main_v30 (broadcastInDim S1x64 ![1] bcast_S64_S1x64_1 : (⟨S64, .f32⟩ : BufTy).Contents (Elt F) → (⟨S1x64, .f32⟩ : BufTy).Contents (Elt F)),
    StableHlo.unary main_v30 main_v31 (broadcastInDim S100000x64 ![0, 1] bcast_S1x64_S100000x64_0_1 : (⟨S1x64, .f32⟩ : BufTy).Contents (Elt F) → (⟨S100000x64, .f32⟩ : BufTy).Contents (Elt F)),
    StableHlo.binary main_v29 main_v31 main_v32 (addf : (⟨S100000x64, .f32⟩ : BufTy).Contents (Elt F) → (⟨S100000x64, .f32⟩ : BufTy).Contents (Elt F) → (⟨S100000x64, .f32⟩ : BufTy).Contents (Elt F)),
    StableHlo.nullary main_call0_cst (constant S_ .f32 0x00000000#32),
    StableHlo.unary main_call0_cst main_call0_v0 (broadcastInDim S100000x64 ![] bcast_S_S100000x64 : (⟨S_, .f32⟩ : BufTy).Contents (Elt F) → (⟨S100000x64, .f32⟩ : BufTy).Contents (Elt F)),
    StableHlo.binary main_v32 main_call0_v0 main_call0_v1 (cmpf .ogt : (⟨S100000x64, .f32⟩ : BufTy).Contents (Elt F) → (⟨S100000x64, .f32⟩ : BufTy).Contents (Elt F) → (⟨S100000x64, .i1⟩ : BufTy).Contents (Elt F)),
    StableHlo.nullary main_call0_cst_0 (constant S_ .f32 0x00000000#32),
    StableHlo.unary main_call0_cst_0 main_call0_v2 (broadcastInDim S100000x64 ![] bcast_S_S100000x64 : (⟨S_, .f32⟩ : BufTy).Contents (Elt F) → (⟨S100000x64, .f32⟩ : BufTy).Contents (Elt F)),
    StableHlo.binary main_v32 main_call0_v2 main_call0_v3 (cmpf .ogt : (⟨S100000x64, .f32⟩ : BufTy).Contents (Elt F) → (⟨S100000x64, .f32⟩ : BufTy).Contents (Elt F) → (⟨S100000x64, .i1⟩ : BufTy).Contents (Elt F)),
    StableHlo.nullary main_call0_cst_1 (constant S_ .f32 0x00000000#32),
    StableHlo.unary main_call0_cst_1 main_call0_call0_v0 (id : (⟨S_, .f32⟩ : BufTy).Contents (Elt F) → (⟨S_, .f32⟩ : BufTy).Contents (Elt F)),
    StableHlo.unary main_call0_call0_v0 main_call0_call0_v1 (broadcastInDim S100000x64 ![] bcast_S_S100000x64 : (⟨S_, .f32⟩ : BufTy).Contents (Elt F) → (⟨S100000x64, .f32⟩ : BufTy).Contents (Elt F)),
    StableHlo.ternary main_call0_v3 main_call0_call0_v1 main_v32 main_call0_v4 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.unary main_call0_v4 main_call0_v5 (Host.expm1 : (⟨S100000x64, .f32⟩ : BufTy).Contents (Elt F) → (⟨S100000x64, .f32⟩ : BufTy).Contents (Elt F)),
    StableHlo.nullary main_call0_cst_2 (constant S_ .f32 0x3F800000#32),
    StableHlo.unary main_call0_cst_2 main_call0_v6 (broadcastInDim S100000x64 ![] bcast_S_S100000x64 : (⟨S_, .f32⟩ : BufTy).Contents (Elt F) → (⟨S100000x64, .f32⟩ : BufTy).Contents (Elt F)),
    StableHlo.binary main_call0_v6 main_call0_v5 main_call0_v7 (mulf : (⟨S100000x64, .f32⟩ : BufTy).Contents (Elt F) → (⟨S100000x64, .f32⟩ : BufTy).Contents (Elt F) → (⟨S100000x64, .f32⟩ : BufTy).Contents (Elt F)),
    StableHlo.ternary main_call0_v1 main_v32 main_call0_v7 main_v33 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    StableHlo.nullary main_cst_6 (constant S_ .f32 0x3F800000#32),
    StableHlo.unary main_cst_6 main_v34 (broadcastInDim S1600000 ![] bcast_S_S1600000 : (⟨S_, .f32⟩ : BufTy).Contents (Elt F) → (⟨S1600000, .f32⟩ : BufTy).Contents (Elt F)),
    StableHlo.nullary main_cst_7 (constant S_ .f32 0x00000000#32),
    StableHlo.unary main_cst_7 main_v35 (broadcastInDim S100000 ![] bcast_S_S100000 : (⟨S_, .f32⟩ : BufTy).Contents (Elt F) → (⟨S100000, .f32⟩ : BufTy).Contents (Elt F)),
    StableHlo.unary main_arg1 main_v36 (broadcastInDim S1600000x1 ![0] bcast_S1600000_S1600000x1_0 : (⟨S1600000, .i32⟩ : BufTy).Contents (Elt F) → (⟨S1600000x1, .i32⟩ : BufTy).Contents (Elt F)),
    StableHlo.ternary main_v35 main_v36 main_v34 main_v37 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_8 (constant S_ .f32 0x00000000#32),
    StableHlo.unary main_cst_8 main_v38 (broadcastInDim S100000 ![] bcast_S_S100000 : (⟨S_, .f32⟩ : BufTy).Contents (Elt F) → (⟨S100000, .f32⟩ : BufTy).Contents (Elt F)),
    StableHlo.unary main_arg2 main_v39 (broadcastInDim S1600000x1 ![0] bcast_S1600000_S1600000x1_0 : (⟨S1600000, .i32⟩ : BufTy).Contents (Elt F) → (⟨S1600000x1, .i32⟩ : BufTy).Contents (Elt F)),
    StableHlo.ternary main_v38 main_v39 main_v34 main_v40 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_9 (constant S_ .f32 0x3F800000#32),
    StableHlo.unary main_cst_9 main_v41 (broadcastInDim S100000 ![] bcast_S_S100000 : (⟨S_, .f32⟩ : BufTy).Contents (Elt F) → (⟨S100000, .f32⟩ : BufTy).Contents (Elt F)),
    StableHlo.binary main_v37 main_v41 main_v42 (maximumf : (⟨S100000, .f32⟩ : BufTy).Contents (Elt F) → (⟨S100000, .f32⟩ : BufTy).Contents (Elt F) → (⟨S100000, .f32⟩ : BufTy).Contents (Elt F)),
    StableHlo.unary main_v42 main_v43 (Host.rsqrt : (⟨S100000, .f32⟩ : BufTy).Contents (Elt F) → (⟨S100000, .f32⟩ : BufTy).Contents (Elt F)),
    StableHlo.nullary main_cst_10 (constant S_ .f32 0x3F800000#32),
    StableHlo.unary main_cst_10 main_v44 (broadcastInDim S100000 ![] bcast_S_S100000 : (⟨S_, .f32⟩ : BufTy).Contents (Elt F) → (⟨S100000, .f32⟩ : BufTy).Contents (Elt F)),
    StableHlo.binary main_v40 main_v44 main_v45 (maximumf : (⟨S100000, .f32⟩ : BufTy).Contents (Elt F) → (⟨S100000, .f32⟩ : BufTy).Contents (Elt F) → (⟨S100000, .f32⟩ : BufTy).Contents (Elt F)),
    StableHlo.unary main_v45 main_v46 (Host.rsqrt : (⟨S100000, .f32⟩ : BufTy).Contents (Elt F) → (⟨S100000, .f32⟩ : BufTy).Contents (Elt F)),
    StableHlo.unary main_v43 main_v47 (broadcastInDim S100000x1 ![0] bcast_S100000_S100000x1_0 : (⟨S100000, .f32⟩ : BufTy).Contents (Elt F) → (⟨S100000x1, .f32⟩ : BufTy).Contents (Elt F)),
    StableHlo.unary main_v47 main_v48 (broadcastInDim S100000x64 ![0, 1] bcast_S100000x1_S100000x64_0_1 : (⟨S100000x1, .f32⟩ : BufTy).Contents (Elt F) → (⟨S100000x64, .f32⟩ : BufTy).Contents (Elt F)),
    StableHlo.binary main_v33 main_v48 main_v49 (mulf : (⟨S100000x64, .f32⟩ : BufTy).Contents (Elt F) → (⟨S100000x64, .f32⟩ : BufTy).Contents (Elt F) → (⟨S100000x64, .f32⟩ : BufTy).Contents (Elt F)),
    StableHlo.binary main_v49 main_arg5 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_c_11 (constantI S_ 32 0#32),
    StableHlo.unary main_c_11 main_v51 (broadcastInDim S1600000 ![] bcast_S_S1600000 : (⟨S_, .i32⟩ : BufTy).Contents (Elt F) → (⟨S1600000, .i32⟩ : BufTy).Contents (Elt F)),
    StableHlo.binary main_arg1 main_v51 main_v52 (cmpi .slt : (⟨S1600000, .i32⟩ : BufTy).Contents (Elt F) → (⟨S1600000, .i32⟩ : BufTy).Contents (Elt F) → (⟨S1600000, .i1⟩ : BufTy).Contents (Elt F)),
    StableHlo.nullary main_c_12 (constantI S_ 32 100000#32),
    StableHlo.unary main_c_12 main_v53 (broadcastInDim S1600000 ![] bcast_S_S1600000 : (⟨S_, .i32⟩ : BufTy).Contents (Elt F) → (⟨S1600000, .i32⟩ : BufTy).Contents (Elt F)),
    StableHlo.binary main_arg1 main_v53 main_v54 (addi : (⟨S1600000, .i32⟩ : BufTy).Contents (Elt F) → (⟨S1600000, .i32⟩ : BufTy).Contents (Elt F) → (⟨S1600000, .i32⟩ : BufTy).Contents (Elt F)),
    StableHlo.ternary main_v52 main_v54 main_arg1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v55 main_v56 (broadcastInDim S1600000x1 ![0] bcast_S1600000_S1600000x1_0 : (⟨S1600000, .i32⟩ : BufTy).Contents (Elt F) → (⟨S1600000x1, .i32⟩ : BufTy).Contents (Elt F)),
    StableHlo.binary main_v50 main_v56 main_v57 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_13 (constant S_ .f32 0x00000000#32),
    StableHlo.unary main_cst_13 main_v58 (broadcastInDim S100000x64 ![] bcast_S_S100000x64 : (⟨S_, .f32⟩ : BufTy).Contents (Elt F) → (⟨S100000x64, .f32⟩ : BufTy).Contents (Elt F)),
    StableHlo.unary main_arg2 main_v59 (broadcastInDim S1600000x1 ![0] bcast_S1600000_S1600000x1_0 : (⟨S1600000, .i32⟩ : BufTy).Contents (Elt F) → (⟨S1600000x1, .i32⟩ : BufTy).Contents (Elt F)),
    StableHlo.ternary main_v58 main_v59 main_v57 main_v60 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v46 main_v61 (broadcastInDim S100000x1 ![0] bcast_S100000_S100000x1_0 : (⟨S100000, .f32⟩ : BufTy).Contents (Elt F) → (⟨S100000x1, .f32⟩ : BufTy).Contents (Elt F)),
    StableHlo.unary main_v61 main_v62 (broadcastInDim S100000x64 ![0, 1] bcast_S100000x1_S100000x64_0_1 : (⟨S100000x1, .f32⟩ : BufTy).Contents (Elt F) → (⟨S100000x64, .f32⟩ : BufTy).Contents (Elt F)),
    StableHlo.binary main_v60 main_v62 main_v63 (mulf : (⟨S100000x64, .f32⟩ : BufTy).Contents (Elt F) → (⟨S100000x64, .f32⟩ : BufTy).Contents (Elt F) → (⟨S100000x64, .f32⟩ : BufTy).Contents (Elt F)),
    StableHlo.unary main_arg6 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S100000x64 ![0, 1] bcast_S1x64_S100000x64_0_1 : (⟨S1x64, .f32⟩ : BufTy).Contents (Elt F) → (⟨S100000x64, .f32⟩ : BufTy).Contents (Elt F)),
    StableHlo.binary main_v63 main_v65 main_v66 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- @main is that straight line: both parts and the three outlined functions unfolded, and sequencing computed. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩

/-- From any memory with zero counters every weakly fair execution of @main terminates, and each buffer ends at the
    fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference program's result buffer as one function of the argument arrays.

  Folding the 97 host operations over the launch contents and reading the result buffer gives the two layers in the
  reference's own spelling: per-node scales from the edge lists, the rows of the features scaled and multiplied by the
  weights with a host product, the aggregation over edges, the rows scaled again and the bias added, and between the
  layers the outlined ELU, written with a guarded exponential-minus-one.
-/
import proofs.«162123_j40845138985205_1_alg».proof.Proof.RefRun
import Idealize.ShloMosaic.PureOps.Ideal

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo

abbrev Feat128 := FVec Ideal S100000x128 .f32
abbrev FeatR := FVec Ideal S100000x64 .f32
abbrev NodeVecR := FVec Ideal S100000 .f32
abbrev BiasR := FVec Ideal S64 .f32
abbrev EdgeIdxR := IVec S1600000 32

/-- rsqrt (max (number of edges ending at the node, 1)), per node. -/
def refNodeScale (idx : EdgeIdxR) : NodeVecR :=
  Host.rsqrt (F := Ideal) (maximumf (F := Ideal)
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32)))
    (broadcastInDim S100000 ![] bcast_S_S100000 (constant (F := Ideal) S_ .f32 0x3F800000#32)))

/-- The source indices with a negative index counted from the end, as a one-column index array. -/
def refGatherIdx (src : EdgeIdxR) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32)))
      src)

/-- Row `dst e` of the result collects row `src e` of `x`, summed over the edges `e`. -/
def refAggregate (src dst : EdgeIdxR) (x : FeatR) : FeatR :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x (refGatherIdx src))

/-- A per-node vector repeated across 128 lanes. -/
def lanes128 (v : NodeVecR) : Feat128 :=
  broadcastInDim S100000x128 ![0, 1] bcast_S100000x1_S100000x128_0_1 (broadcastInDim S100000x1 ![0] bcast_S100000_S100000x1_0 v)
/-- A per-node vector repeated across 64 lanes. -/
def lanes64 (v : NodeVecR) : FeatR :=
  broadcastInDim S100000x64 ![0, 1] bcast_S100000x1_S100000x64_0_1 (broadcastInDim S100000x1 ![0] bcast_S100000_S100000x1_0 v)
/-- A bias repeated down the rows. -/
def biasRows (b : BiasR) : FeatR :=
  broadcastInDim S100000x64 ![0, 1] bcast_S1x64_S100000x64_0_1 (broadcastInDim S1x64 ![1] bcast_S64_S1x64_1 b)
/-- A scalar literal repeated over the whole feature array. -/
def splat64 (w : BitVec 32) : FeatR :=
  broadcastInDim S100000x64 ![] bcast_S_S100000x64 (constant (F := Ideal) S_ .f32 w)

/-- The first layer's projection, in the reference's spelling. -/
def refProj1 (h : Feat128) (ns : NodeVecR) (w : FVec Ideal S128x64 .f32) : FeatR :=
  Host.dotGeneral (F := Ideal) dot_S100000x128_S128x64_S100000x64_1_0_0_1_n_n none (mulf h (lanes128 ns)) w
/-- The second layer's projection, in the reference's spelling. -/
def refProj2 (e : FeatR) (ns : NodeVecR) (w : FVec Ideal S64x64 .f32) : FeatR :=
  Host.dotGeneral (F := Ideal) dot_S100000x64_S64x64_S100000x64_1_0_0_1_n_n none (mulf e (lanes64 ns)) w
/-- A layer's finish, in the reference's spelling. -/
def refFinish (a : FeatR) (nd : NodeVecR) (b : BiasR) : FeatR := addf (mulf a (lanes64 nd)) (biasRows b)
/-- The outlined ELU: x where x > 0, elsewhere 1 · expm1 of x guarded to 0 where x > 0. -/
def refElu (x : FeatR) : FeatR :=
  select (cmpf .ogt x (splat64 0x00000000#32)) x
    (mulf (splat64 0x3F800000#32)
      (Host.expm1 (F := Ideal) (select (cmpf .ogt x (splat64 0x00000000#32))
        (broadcastInDim S100000x64 ![] bcast_S_S100000x64 (id (constant (F := Ideal) S_ .f32 0x00000000#32)) : FeatR) x)))

/-- The reference's result as a function of the seven argument arrays. -/
def refOut (h : Feat128) (src dst : EdgeIdxR) (w1 : FVec Ideal S128x64 .f32) (b1 : BiasR)
    (w2 : FVec Ideal S64x64 .f32) (b2 : BiasR) : FeatR :=
  refFinish (refAggregate src dst
      (refProj2 (refElu (refFinish (refAggregate src dst (refProj1 h (refNodeScale src) w1)) (refNodeScale dst) b1))
        (refNodeScale src) w2))
    (refNodeScale dst) b2

attribute [local irreducible] Host.scatterAdd Host.gather Host.rsqrt Host.expm1 in
set_option maxRecDepth 16384 in
set_option maxHeartbeats 4000000 in
/-- The fold of @main's operations at the result buffer is `refOut` of the contents at the argument buffers. -/
theorem out_eq (V : Valuation τ sig (Elt Ideal)) :
    after (ops (F := Ideal)) V (main_v66 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

end Cert.ReferenceIdeal.RefValue

end
-- ==== Proof.RefArgs.lean ====
/-
  No host operation of the reference writes an argument buffer: folded over any contents, the 97 operations leave each
  of the seven argument buffers as it was.
-/
import proofs.«162123_j40845138985205_1_alg».proof.Proof.RefRun

noncomputable section

namespace Cert.ReferenceIdeal.RefArgs

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F]

theorem arg0_eq (V : Valuation τ sig (Elt F)) :
    after (ops (F := F)) V (main_arg0 : DevRef τ sig) = V (main_arg0 : DevRef τ sig) := by
  after_results_simp

theorem arg1_eq (V : Valuation τ sig (Elt F)) :
    after (ops (F := F)) V (main_arg1 : DevRef τ sig) = V (main_arg1 : DevRef τ sig) := by
  after_results_simp

theorem arg2_eq (V : Valuation τ sig (Elt F)) :
    after (ops (F := F)) V (main_arg2 : DevRef τ sig) = V (main_arg2 : DevRef τ sig) := by
  after_results_simp

theorem arg3_eq (V : Valuation τ sig (Elt F)) :
    after (ops (F := F)) V (main_arg3 : DevRef τ sig) = V (main_arg3 : DevRef τ sig) := by
  after_results_simp

theorem arg4_eq (V : Valuation τ sig (Elt F)) :
    after (ops (F := F)) V (main_arg4 : DevRef τ sig) = V (main_arg4 : DevRef τ sig) := by
  after_results_simp

theorem arg5_eq (V : Valuation τ sig (Elt F)) :
    after (ops (F := F)) V (main_arg5 : DevRef τ sig) = V (main_arg5 : DevRef τ sig) := by
  after_results_simp

theorem arg6_eq (V : Valuation τ sig (Elt F)) :
    after (ops (F := F)) V (main_arg6 : DevRef τ sig) = V (main_arg6 : DevRef τ sig) := by
  after_results_simp

end Cert.ReferenceIdeal.RefArgs

end
-- ==== Proof.LibColRow.lean ====
/-
  Columns and rows of a rank-2 array on the host: the layouts a per-row scale and a per-column bias pass through.

  A vector of a entries becomes an [a, 1] column, either by a reshape or by a broadcast along a new unit axis, and the column
  is then repeated across b lanes; a vector of b entries becomes a [1, b] row and is repeated down a rows. Read at an index
  written by its coordinates, each of these is the operand at the row coordinate alone (for a column) or at the lane
  coordinate alone (for a row).
-/
import Idealize.ShloMosaic.Lib.ValueIdx
import Idealize.ShloMosaic.Lib.Pipeline.Value

namespace Cert.LibColRow

open Idealize.ShloMosaic Idealize.ShloMosaic.ValueIdx

variable {α : Type}

/-- A vector broadcast to an `[a, 1]` column reads, at `(p, u)`, the vector at `p`. -/
theorem bcast_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A vector reshaped to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An `[a, 1]` column broadcast (along both axes in place) to `[a, b]` reads, at `(p, q)`, the column at row `p`. -/
theorem bcast_a1_ab_apply {a b : ℕ} (col : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h col (ix2 p q) = col (ix2 p (0 : Fin 1)) := by
  refine broadcastInDim_apply _ h col (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- A vector broadcast to a `[1, b]` row reads, at `(u, q)`, the vector at `q`. -/
theorem bcast_b_1b_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A `[1, b]` row broadcast (along both axes in place) to `[a, b]` reads, at `(p, q)`, the row at lane `q`. -/
theorem bcast_1b_ab_apply {a b : ℕ} (row : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h row (ix2 p q) = row (ix2 (0 : Fin 1) q) := by
  refine broadcastInDim_apply _ h row (ix2 p q) (ix2 (0 : Fin 1) q) fun ax => ?_
  match ax with
  | ⟨0, _⟩ => exact (if_pos rfl).symm
  | ⟨1, _⟩ =>
    show q.val = if b = 1 then 0 else q.val
    split
    · have := q.isLt; omega
    · rfl

end Cert.LibColRow
-- ==== Proof.Bridge.lean ====
/-
  The reference's result and the kernel program's result are one function of the argument arrays.

  Both apply the same per-node scales and the same aggregation over edges; what differs is the spelling of the dense
  stages. A column of scales repeated across the lanes by two host broadcasts reads, at (p, q), the scale of node p, as
  does the kernel's reshaped column at (p, 0); a bias broadcast down the rows reads its q-th entry at (p, q), as does the
  kernel's reshaped row at (0, q); the host product of the scaled rows with the weights is the same sum as the kernel's
  product into a zero accumulator. For the activation, where x > 0 both give x; elsewhere the reference's guarded
  exponential-minus-one is taken at x itself, and 1 · (exp x − 1) = exp x − 1 with the literal 1.0 the real number one.
  None of these steps moves a factor across a sum, so nothing is asked of the inputs.
-/
import proofs.«162123_j40845138985205_1_alg».proof.Proof.RefValue
import proofs.«162123_j40845138985205_1_alg».proof.Proof.KerFold
import proofs.«162123_j40845138985205_1_alg».proof.Proof.LibColRow
import Idealize.ShloMosaic.Lib.ValueLayout

noncomputable section

namespace Cert.Bridge

open Idealize.ShloMosaic Idealize.ShloMosaic.ValueIdx
open Cert.Dense Cert.LibDenseProduct Cert.LibColRow
open Cert.KernelIdeal.HostParts Cert.KernelIdeal.KerFold
open Cert.ReferenceIdeal.RefValue

attribute [local irreducible] Host.scatterAdd Host.gather Host.rsqrt in
/-- The reference's per-node scale is the kernel program's: the same host operations, over the same shapes. -/
theorem nodeScale_eq : refNodeScale = nodeScale := rfl

attribute [local irreducible] Host.scatterAdd Host.gather Host.rsqrt in
/-- The reference's aggregation over edges is the kernel program's. -/
theorem aggregate_eq : refAggregate = aggregate := rfl

/-- The literal 1.0 is the real number one. -/
theorem one_f32 : Ideal.ofBits .f32 0x3F800000#32 = 1 := by
  simp [Ideal.ofBits, Ideal.ieee, -EReal.coe_mul]; norm_num

theorem lanes128_apply (v : NodeVec) (p : Fin 100000) (q : Fin 128) :
    lanes128 v (ix2 p q) = col v (ix2 p (0 : Fin 1)) :=
  (bcast_a1_ab_apply _ _ p q).trans ((bcast_a_a1_apply v _ p 0).trans (shapeCast_a_a1_apply v _ p 0).symm)

theorem lanes64_apply (v : NodeVec) (p : Fin 100000) (q : Fin 64) :
    lanes64 v (ix2 p q) = col v (ix2 p (0 : Fin 1)) :=
  (bcast_a1_ab_apply _ _ p q).trans ((bcast_a_a1_apply v _ p 0).trans (shapeCast_a_a1_apply v _ p 0).symm)

theorem biasRows_apply (b : Bias) (p : Fin 100000) (q : Fin 64) :
    biasRows b (ix2 p q) = row b (ix2 (0 : Fin 1) q) :=
  (bcast_1b_ab_apply _ _ p q).trans ((bcast_b_1b_apply b _ 0 q).trans (shapeCast_a_1a_apply b _ 0 q).symm)

/-- The first projection: host product of the lane-scaled rows = `proj` with the reshaped column. -/
theorem proj1_eq (h : Feat128) (ns : NodeVec) (w : (⟨Cert.ReferenceIdeal.S128x64, .f32⟩ : BufTy).Contents (Elt Ideal)) :
    refProj1 h ns w = proj h (col ns) w := by
  have e : (mulf h (lanes128 ns) : FVec Ideal ⟨2, ![100000, 128]⟩ .f32) = scaleRows h (col ns) := by
    funext j
    obtain ⟨p, q, rfl⟩ : ∃ (p : Fin 100000) (q : Fin 128), j = ix2 p q := ⟨j 0, j 1, eq_ix2 j⟩
    exact congrArg (h (ix2 p q) * ·) (lanes128_apply ns p q)
  exact (congrArg (fun A : FVec Ideal ⟨2, ![100000, 128]⟩ .f32 => Host.dotGeneral (DotDims.plain 100000 128 64) none A
      (w : FVec Ideal ⟨2, ![128, 64]⟩ .f32)) e).trans (dotGeneral_plain_eq none _ _)

/-- The second projection likewise. -/
theorem proj2_eq (x : Feat) (ns : NodeVec) (w : (⟨Cert.ReferenceIdeal.S64x64, .f32⟩ : BufTy).Contents (Elt Ideal)) :
    refProj2 x ns w = proj x (col ns) w := by
  have e : (mulf x (lanes64 ns) : FVec Ideal ⟨2, ![100000, 64]⟩ .f32) = scaleRows x (col ns) := by
    funext j
    obtain ⟨p, q, rfl⟩ : ∃ (p : Fin 100000) (q : Fin 64), j = ix2 p q := ⟨j 0, j 1, eq_ix2 j⟩
    exact congrArg (x (ix2 p q) * ·) (lanes64_apply ns p q)
  exact (congrArg (fun A : FVec Ideal ⟨2, ![100000, 64]⟩ .f32 => Host.dotGeneral (DotDims.plain 100000 64 64) none A
      (w : FVec Ideal ⟨2, ![64, 64]⟩ .f32)) e).trans (dotGeneral_plain_eq none _ _)

/-- A layer's finish. -/
theorem finish_eq (a : Feat) (nd : NodeVec) (b : Bias) : refFinish a nd b = finish a (col nd) (row b) := by
  funext j
  obtain ⟨p, q, rfl⟩ : ∃ (p : Fin 100000) (q : Fin 64), j = ix2 p q := ⟨j 0, j 1, eq_ix2 j⟩
  exact congrArg₂ (fun x y : EReal => x + y) (congrArg (a (ix2 p q) * ·) (lanes64_apply nd p q)) (biasRows_apply b p q)

/-- The activation, at one entry. -/
theorem elu_scalar (t : EReal) :
    Scalar.select (FloatOps.cmpf (F := Ideal) .ogt t (Ideal.ofBits .f32 0x00000000#32)) t
        (Ideal.ofBits .f32 0x3F800000#32 * (Ideal.exp (Scalar.select (FloatOps.cmpf (F := Ideal) .ogt t (Ideal.ofBits .f32 0x00000000#32))
          (Ideal.ofBits .f32 0x00000000#32) t) - 1))
      = elu t := by
  unfold elu Scalar.select
  by_cases hc : FloatOps.cmpf (F := Ideal) .ogt t (Ideal.ofBits .f32 0x00000000#32) = 1
  · rw [if_pos hc]; exact (if_pos hc).symm
  · rw [if_neg hc, if_neg hc]
    refine Eq.trans ?_ (if_neg hc).symm
    show Ideal.ofBits .f32 0x3F800000#32 * (Ideal.exp t - 1) = Ideal.exp t - Ideal.ofBits .f32 0x3F800000#32
    rw [one_f32, one_mul]

theorem elu_eq (x : Feat) : refElu x = fun j => elu (x j) := by
  funext j
  exact elu_scalar (x j)

/-- The two results are one function of the arguments. -/
theorem out_eq (h : Feat128) (src dst : EdgeIdxR) (w1 : FVec Ideal Cert.ReferenceIdeal.S128x64 .f32) (b1 : BiasR)
    (w2 : FVec Ideal Cert.ReferenceIdeal.S64x64 .f32) (b2 : BiasR) :
    refOut h src dst w1 b1 w2 b2 = kerOut h src dst w1 b1 w2 b2 := by
  unfold refOut kerOut
  rw [nodeScale_eq, aggregate_eq, proj1_eq, finish_eq, elu_eq, proj2_eq, finish_eq]
  rfl

end Cert.Bridge

end
-- ==== Proof.lean ====
/-
  Two-layer graph convolution: a tiled kernel program against its host reference, over the extended reals.

  Each layer computes out = (A ((h ⊙ s) W)) ⊙ d + b: the rows of the features are scaled by a per-node factor
  s = rsqrt (max (out-degree, 1)) and multiplied by the weights, the rows are summed along the edges (A), scaled by
  d = rsqrt (max (in-degree, 1)), and the bias is added; an ELU sits between the layers. The kernel program runs the dense
  stages as three tiled kernels of 20 row blocks each (projection; finish + ELU + projection; finish) and leaves the degree
  counts and the aggregation to the same host operations the reference uses.

  The kernel program's result buffer is read off its run segment by segment as one function of the arguments (`kerOut`),
  the reference's off the fold of its 97 host operations (`refOut`), and the two functions agree: a block of rows of a
  dense stage depends on the same rows of its operands only, the kernel's matrix product into a zero accumulator and the
  host's product are the same sum, a change of number format is the identity, and the ELU's two spellings agree at every
  extended real. No step uses that the inputs are finite. The kernel program has no sanctioned rewrite to account for.
-/
import proofs.«162123_j40845138985205_1_alg».proof.Defs
import proofs.«162123_j40845138985205_1_alg».proof.Proof.Gen.Kernel
import proofs.«162123_j40845138985205_1_alg».proof.Proof.Gen.Kernel.Frame
import proofs.«162123_j40845138985205_1_alg».proof.Proof.Gen.KernelIdeal
import proofs.«162123_j40845138985205_1_alg».proof.Proof.Gen.KernelIdeal.Frame
import proofs.«162123_j40845138985205_1_alg».proof.Proof.Gen.ReferenceIdeal
import proofs.«162123_j40845138985205_1_alg».proof.Proof.Gen.Pre_finite_inputs
import proofs.«162123_j40845138985205_1_alg».proof.Proof.KerRun
import proofs.«162123_j40845138985205_1_alg».proof.Proof.KerFold
import proofs.«162123_j40845138985205_1_alg».proof.Proof.RefRun
import proofs.«162123_j40845138985205_1_alg».proof.Proof.RefValue
import proofs.«162123_j40845138985205_1_alg».proof.Proof.RefArgs
import proofs.«162123_j40845138985205_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: no host operation writes an argument buffer. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.RefArgs.arg0_eq _),
      (h c Cert.ReferenceIdeal.main_arg1).trans (Cert.ReferenceIdeal.RefArgs.arg1_eq _),
      (h c Cert.ReferenceIdeal.main_arg2).trans (Cert.ReferenceIdeal.RefArgs.arg2_eq _),
      (h c Cert.ReferenceIdeal.main_arg3).trans (Cert.ReferenceIdeal.RefArgs.arg3_eq _),
      (h c Cert.ReferenceIdeal.main_arg4).trans (Cert.ReferenceIdeal.RefArgs.arg4_eq _),
      (h c Cert.ReferenceIdeal.main_arg5).trans (Cert.ReferenceIdeal.RefArgs.arg5_eq _),
      (h c Cert.ReferenceIdeal.main_arg6).trans (Cert.ReferenceIdeal.RefArgs.arg6_eq _)⟩)
    (Cert.ReferenceIdeal.RefRun.run_all (F := Ideal) m ρ)

/-- The ideal pass rewrote nothing in the kernel program. -/
theorem preserves : Cert.preserves_Kernel_KernelIdeal := trivial

/-- From memories agreeing on the arguments both programs run, and their results are equal entry by entry: the kernel
    program's is `kerOut` of the arguments, the reference's `refOut`, and these are one function. -/
theorem algebraic : Cert.algebraic_KernelIdeal_ReferenceIdeal := by
  intro m ρ m' ρ' _ hagree
  refine ⟨fun c => Cert.KernelIdeal.Gen.W6 m ρ c (Proc.devRef .tc Cert.KernelIdeal.main_v41), Cert.KernelIdeal.KerRun.run_result m ρ, ?_⟩
  refine (θ_run Cert.ReferenceIdeal.defs _ _).mono (fun r h c =>
    ⟨?_, (h c Cert.ReferenceIdeal.main_arg0).trans (Cert.ReferenceIdeal.RefArgs.arg0_eq _),
      (h c Cert.ReferenceIdeal.main_arg1).trans (Cert.ReferenceIdeal.RefArgs.arg1_eq _),
      (h c Cert.ReferenceIdeal.main_arg2).trans (Cert.ReferenceIdeal.RefArgs.arg2_eq _),
      (h c Cert.ReferenceIdeal.main_arg3).trans (Cert.ReferenceIdeal.RefArgs.arg3_eq _),
      (h c Cert.ReferenceIdeal.main_arg4).trans (Cert.ReferenceIdeal.RefArgs.arg4_eq _),
      (h c Cert.ReferenceIdeal.main_arg5).trans (Cert.ReferenceIdeal.RefArgs.arg5_eq _),
      (h c Cert.ReferenceIdeal.main_arg6).trans (Cert.ReferenceIdeal.RefArgs.arg6_eq _)⟩)
    (Cert.ReferenceIdeal.RefRun.run_all (F := Ideal) m' ρ')
  obtain ⟨a0, a1, a2, a3, a4, a5, a6⟩ := hagree c
  refine (h c Cert.ReferenceIdeal.main_v66).trans ((Cert.ReferenceIdeal.RefValue.out_eq _).trans ?_)
  refine Eq.trans ?_ (Cert.KernelIdeal.KerFold.result_eq m ρ c).symm
  show Cert.ReferenceIdeal.RefValue.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = _
  rw [a0, a1, a2, a3, a4, a5, a6]
  exact Cert.Bridge.out_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
